-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S96x96 : Shape := ⟨2, ![96, 96]⟩
abbrev S96 : Shape := ⟨1, ![96]⟩
abbrev S96x192 : Shape := ⟨2, ![96, 192]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_
  bcast_S_S96x192 : S_.BroadcastsInDim S96x192 (![] : Fin 0 → Fin S96x192.rank)
  reducesTo_S96x192_S_d0_1 : S96x192.ReducesTo [0, 1] S_

variable [Facts]

def fn_part2 {F : FTy → Type} [FloatOps F] (main_arg8 : FVec F S96x192 .f32) (main_arg9 : FVec F S96 .f32) (main_v33 : IVec S_ 1) : IVec S_ 1 :=
  let main_v34 : FVec F S96x192 .f32 := Host.absf main_arg8
  let main_cst_12 : FVec F S_ .f32 := constant S_ .f32 0x7F800000#32
  let main_v35 : FVec F S96x192 .f32 := broadcastInDim S96x192 ![] bcast_S_S96x192 main_cst_12
  let main_v36 : IVec S96x192 1 := cmpf .olt main_v34 main_v35
  let main_c_13 : IVec S_ 1 := constantI S_ 1 1#1
  let main_v37 : IVec S_ 1 := (fun x v => Host.reduce IntOp.andi x v reducesTo_S96x192_S_d0_1 h_S_) main_v36 main_c_13
  let main_v38 : IVec S_ 1 := andi main_v33 main_v37
  let main_v39 : FVec F S96 .f32 := Host.absf main_arg9
  let main_cst_14 : FVec F S_ .f32 := constant S_ .f32 0x7F800000#32
  let main_v40 : FVec F S96 .f32 := broadcastInDim S96 ![] bcast_S_S96 main_cst_14
  let main_v41 : IVec S96 1 := cmpf .olt main_v39 main_v40
  let main_c_15 : IVec S_ 1 := constantI S_ 1 1#1
  let main_v42 : IVec S_ 1 := (fun x v => Host.reduce IntOp.andi x v reducesTo_S96_S_d0 h_S_) main_v41 main_c_15
  let main_v43 : IVec S_ 1 := andi main_v38 main_v42
  main_v43

def fn_part1 {F : FTy → Type} [FloatOps F] (main_arg5 : FVec F S96x96 .f32) (main_arg6 : FVec F S96x96 .f32) (main_arg7 : FVec F S96 .f32) (main_arg8 : FVec F S96x192 .f32) (main_arg9 : FVec F S96 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S96x96 .f32 := Host.absf main_arg5
  let main_cst_6 : FVec F S_ .f32 := constant S_ .f32 0x7F800000#32
  let main_v20 : FVec F S96x96 .f32 := broadcastInDim S96x96 ![] bcast_S_S96x96 main_cst_6
  let main_v21 : IVec S96x96 1 := cmpf .olt main_v19 main_v20
  let main_c_7 : IVec S_ 1 := constantI S_ 1 1#1
  let main_v22 : IVec S_ 1 := (fun x v => Host.reduce IntOp.andi x v reducesTo_S96x96_S_d0_1 h_S_) main_v21 main_c_7
  let main_v23 : IVec S_ 1 := andi main_v18 main_v22
  let main_v24 : FVec F S96x96 .f32 := Host.absf main_arg6
  let main_cst_8 : FVec F S_ .f32 := constant S_ .f32 0x7F800000#32
  let main_v25 : FVec F S96x96 .f32 := broadcastInDim S96x96 ![] bcast_S_S96x96 main_cst_8
  let main_v26 : IVec S96x96 1 := cmpf .olt main_v24 main_v25
  let main_c_9 : IVec S_ 1 := constantI S_ 1 1#1
  let main_v27 : IVec S_ 1 := (fun x v => Host.reduce IntOp.andi x v reducesTo_S96x96_S_d0_1 h_S_) main_v26 main_c_9
  let main_v28 : IVec S_ 1 := andi main_v23 main_v27
  let main_v29 : FVec F S96 .f32 := Host.absf main_arg7
  let main_cst_10 : FVec F S_ .f32 := constant S_ .f32 0x7F800000#32
  let main_v30 : FVec F S96 .f32 := broadcastInDim S96 ![] bcast_S_S96 main_cst_10
  let main_v31 : IVec S96 1 := cmpf .olt main_v29 main_v30
  let main_c_11 : IVec S_ 1 := constantI S_ 1 1#1
  let main_v32 : IVec S_ 1 := (fun x v => Host.reduce IntOp.andi x v reducesTo_S96_S_d0 h_S_) main_v31 main_c_11
  let main_v33 : IVec S_ 1 := andi main_v28 main_v32
  fn_part2 (F := F) main_arg8 main_arg9 main_v33

def fn {F : FTy → Type} [FloatOps F] (main_arg0 : FVec F S50000x96 .f32) (main_arg1 : IVec S2x800000 32) (main_arg2 : FVec F S96x96 .f32) (main_arg3 : FVec F S96x96 .f32) (main_arg4 : FVec F S96 .f32) (main_arg5 : FVec F S96x96 .f32) (main_arg6 : FVec F S96x96 .f32) (main_arg7 : FVec F S96 .f32) (main_arg8 : FVec F S96x192 .f32) (main_arg9 : FVec F S96 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S96x96 .f32 := Host.absf main_arg2
  let main_cst_0 : FVec F S_ .f32 := constant S_ .f32 0x7F800000#32
  let main_v5 : FVec F S96x96 .f32 := broadcastInDim S96x96 ![] bcast_S_S96x96 main_cst_0
  let main_v6 : IVec S96x96 1 := cmpf .olt main_v4 main_v5
  let main_c_1 : IVec S_ 1 := constantI S_ 1 1#1
  let main_v7 : IVec S_ 1 := (fun x v => Host.reduce IntOp.andi x v reducesTo_S96x96_S_d0_1 h_S_) main_v6 main_c_1
  let main_v8 : IVec S_ 1 := andi main_v3 main_v7
  let main_v9 : FVec F S96x96 .f32 := Host.absf main_arg3
  let main_cst_2 : FVec F S_ .f32 := constant S_ .f32 0x7F800000#32
  let main_v10 : FVec F S96x96 .f32 := broadcastInDim S96x96 ![] bcast_S_S96x96 main_cst_2
  let main_v11 : IVec S96x96 1 := cmpf .olt main_v9 main_v10
  let main_c_3 : IVec S_ 1 := constantI S_ 1 1#1
  let main_v12 : IVec S_ 1 := (fun x v => Host.reduce IntOp.andi x v reducesTo_S96x96_S_d0_1 h_S_) main_v11 main_c_3
  let main_v13 : IVec S_ 1 := andi main_v8 main_v12
  let main_v14 : FVec F S96 .f32 := Host.absf main_arg4
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg5 main_arg6 main_arg7 main_arg8 main_arg9 main_v13 main_v16
-- ==== Kernel.lean ====
abbrev S50000x96 : Shape := ⟨2, ![50000, 96]⟩
abbrev S2x800000 : Shape := ⟨2, ![2, 800000]⟩
abbrev S96x96 : Shape := ⟨2, ![96, 96]⟩
abbrev S96 : Shape := ⟨1, ![96]⟩
abbrev S96x192 : Shape := ⟨2, ![96, 192]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x96 : Shape := ⟨2, ![800000, 96]⟩
abbrev S2000x96 : Shape := ⟨2, ![2000, 96]⟩
abbrev S1x96 : Shape := ⟨2, ![1, 96]⟩
abbrev S50000 : Shape := ⟨1, ![50000]⟩
abbrev S50000x1 : Shape := ⟨2, ![50000, 1]⟩

abbrev nBuf : Space → Nat
  | .hbm => 58
  | .vmem => 21
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S96x96, .f32⟩
  | .hbm, ⟨3, _⟩ => ⟨S96x96, .f32⟩
  | .hbm, ⟨4, _⟩ => ⟨S96, .f32⟩
  | .hbm, ⟨5, _⟩ => ⟨S96x96, .f32⟩
  | .hbm, ⟨6, _⟩ => ⟨S96x96, .f32⟩
  | .hbm, ⟨7, _⟩ => ⟨S96, .f32⟩
  | .hbm, ⟨8, _⟩ => ⟨S96x192, .f32⟩
  | .hbm, ⟨9, _⟩ => ⟨S96, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x96, .f32⟩
  | .hbm, ⟨23, _⟩ => ⟨S_, .f32⟩
  | .hbm, ⟨24, _⟩ => ⟨S50000x96, .f32⟩
  | .hbm, ⟨25, _⟩ => ⟨S800000x1, .i32⟩
  | .hbm, ⟨26, _⟩ => ⟨S50000x96, .f32⟩
  | .hbm, ⟨27, _⟩ => ⟨S50000x96, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x96, .f32⟩
  | .hbm, ⟨37, _⟩ => ⟨S_, .f32⟩
  | .hbm, ⟨38, _⟩ => ⟨S50000x96, .f32⟩
  | .hbm, ⟨39, _⟩ => ⟨S800000x1, .i32⟩
  | .hbm, ⟨40, _⟩ => ⟨S50000x96, .f32⟩
  | .hbm, ⟨41, _⟩ => ⟨S_, .f32⟩
  | .hbm, ⟨42, _⟩ => ⟨S800000, .f32⟩
  | .hbm, ⟨43, _⟩ => ⟨S_, .f32⟩
  | .hbm, ⟨44, _⟩ => ⟨S50000, .f32⟩
  | .hbm, ⟨45, _⟩ => ⟨S800000x1, .i32⟩
  | .hbm, ⟨46, _⟩ => ⟨S50000, .f32⟩
  | .hbm, ⟨47, _⟩ => ⟨S_, .f32⟩
  | .hbm, ⟨48, _⟩ => ⟨S50000, .f32⟩
  | .hbm, ⟨49, _⟩ => ⟨S50000, .f32⟩
  | .hbm, ⟨50, _⟩ => ⟨S50000x1, .f32⟩
  | .hbm, ⟨51, _⟩ => ⟨S50000x96, .f32⟩
  | .hbm, ⟨52, _⟩ => ⟨S50000x96, .f32⟩
  | .hbm, ⟨53, _⟩ => ⟨S96x96, .f32⟩
  | .hbm, ⟨54, _⟩ => ⟨S96x96, .f32⟩
  | .hbm, ⟨55, _⟩ => ⟨S96x96, .f32⟩
  | .hbm, ⟨56, _⟩ => ⟨S96x96, .f32⟩
  | .hbm, ⟨57, _⟩ => ⟨S50000x96, .f32⟩
  | .local _ .vmem, ⟨0, _⟩ => ⟨S2000x96, .f32⟩
  | .local _ .vmem, ⟨1, _⟩ => ⟨S2000x96, .f32⟩
  | .local _ .vmem, ⟨2, _⟩ => ⟨S2000x96, .f32⟩
  | .local _ .vmem, ⟨3, _⟩ => ⟨S2000x96, .f32⟩
  | .local _ .vmem, ⟨4, _⟩ => ⟨S96x96, .f32⟩
  | .local _ .vmem, ⟨5, _⟩ => ⟨S96x96, .f32⟩
  | .local _ .vmem, ⟨6, _⟩ => ⟨S96, .f32⟩
  | .local _ .vmem, ⟨7, _⟩ => ⟨S2000x96, .f32⟩
  | .local _ .vmem, ⟨8, _⟩ => ⟨S2000x96, .f32⟩
  | .local _ .vmem, ⟨9, _⟩ => ⟨S2000x96, .f32⟩
  | .local _ .vmem, ⟨10, _⟩ => ⟨S2000x96, .f32⟩
  | .local _ .vmem, ⟨11, _⟩ => ⟨S2000x96, .f32⟩
  | .local _ .vmem, ⟨12, _⟩ => ⟨S2000x96, .f32⟩
  | .local _ .vmem, ⟨13, _⟩ => ⟨S96x96, .f32⟩
  | .local _ .vmem, ⟨14, _⟩ => ⟨S96x96, .f32⟩
  | .local _ .vmem, ⟨15, _⟩ => ⟨S96, .f32⟩
  | .local _ .vmem, ⟨16, _⟩ => ⟨S96x96, .f32⟩
  | .local _ .vmem, ⟨17, _⟩ => ⟨S96x96, .f32⟩
  | .local _ .vmem, ⟨18, _⟩ => ⟨S96, .f32⟩
  | .local _ .vmem, ⟨19, _⟩ => ⟨S2000x96, .f32⟩
  | .local _ .vmem, ⟨20, _⟩ => ⟨S2000x96, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_1 : Ref sig .tc := ⟨.hbm, 28, rfl⟩
abbrev main_v15 : Ref sig .tc := ⟨.hbm, 29, rfl⟩
abbrev main_v16 : Ref sig .tc := ⟨.hbm, 30, rfl⟩
abbrev main_c_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg8_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem8_1 : DmaSem sig := 20

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S96x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S96x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x96 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S96x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S96x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S96 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S96x96 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S96x96 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S96 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x96 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  inb_S2000x96_S2000x96_0_0 : ∀ a, (![0, 0] : Fin 2 → Nat) a + S2000x96.size a ≤ S2000x96.size a
  h_S2000x96 : 0 < S2000x96.numel
  bitsLt_bf16_f32 : FTy.bits .bf16 < FTy.bits .f32
  shapeCasts_S2000x96_S2000x96 : S2000x96.ShapeCasts S2000x96
  inb_S96x96_S96x96_0_0 : ∀ a, (![0, 0] : Fin 2 → Nat) a + S96x96.size a ≤ S96x96.size a
  h_S96x96 : 0 < S96x96.numel
  inb_S96_S96_0 : ∀ a, (![0] : Fin 1 → Nat) a + S96.size a ≤ S96.size a
  h_S96 : 0 < S96.numel
  shapeCasts_S96_S1x96 : S96.ShapeCasts S1x96
  broadcasts_S1x96_S2000x96 : S1x96.Broadcasts S2000x96
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  slices_S96x192_S96x96_0_0 : S96x192.Slices ![0, 0] S96x96
  transposes_S96x96_S96x96_1_0 : S96x96.Transposes [1, 0] S96x96
  slices_S96x192_S96x96_0_96 : S96x192.Slices ![0, 96] S96x96
  shapeCasts_S96x96_S96x96 : S96x96.ShapeCasts S96x96
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S2000x96_S96x96_S2000x96_1_0_0_1_n_n_wf : DotDims.WF S2000x96 S96x96 S2000x96 [1] [0] [0] [1] [] []
  scatter_S50000_S800000x1_S800000_n_0_0_1_wf : ScatterDims.WF S50000 S800000x1 S800000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x96.size a ≤ S50000x96.size a
  hwx0_0 : ∀ i : grid0.Coords, EltTy.bits .f32 = 32 ∨ (Rect.block (s := S50000x96) S2000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x96.size a ≤ S50000x96.size a
  hwx0_1 : ∀ i : grid0.Coords, EltTy.bits .f32 = 32 ∨ (Rect.block (s := S50000x96) S2000x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96x96.size a ≤ S96x96.size a
  hwx0_2 : ∀ i : grid0.Coords, EltTy.bits .f32 = 32 ∨ (Rect.block (s := S96x96) S96x96.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S96x96.size a ≤ S96x96.size a
  hwx0_3 : ∀ i : grid0.Coords, EltTy.bits .f32 = 32 ∨ (Rect.block (s := S96x96) S96x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S96.size a ≤ S96.size a
  hwx0_4 : ∀ i : grid0.Coords, EltTy.bits .f32 = 32 ∨ (Rect.block (s := S96) S96.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x96.size a ≤ S50000x96.size a
  hwx0_5 : ∀ i : grid0.Coords, EltTy.bits .f32 = 32 ∨ (Rect.block (s := S50000x96) S2000x96.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x96.size a ≤ S50000x96.size a
  hwx1_0 : ∀ i : grid1.Coords, EltTy.bits .f32 = 32 ∨ (Rect.block (s := S50000x96) S2000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x96.size a ≤ S50000x96.size a
  hwx1_1 : ∀ i : grid1.Coords, EltTy.bits .f32 = 32 ∨ (Rect.block (s := S50000x96) S2000x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S96x96.size a ≤ S96x96.size a
  hwx1_2 : ∀ i : grid1.Coords, EltTy.bits .f32 = 32 ∨ (Rect.block (s := S96x96) S96x96.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S96x96.size a ≤ S96x96.size a
  hwx1_3 : ∀ i : grid1.Coords, EltTy.bits .f32 = 32 ∨ (Rect.block (s := S96x96) S96x96.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S96.size a ≤ S96.size a
  hwx1_4 : ∀ i : grid1.Coords, EltTy.bits .f32 = 32 ∨ (Rect.block (s := S96) S96.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S96x96.size a ≤ S96x96.size a
  hwx1_5 : ∀ i : grid1.Coords, EltTy.bits .f32 = 32 ∨ (Rect.block (s := S96x96) S96x96.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S96x96.size a ≤ S96x96.size a
  hwx1_6 : ∀ i : grid1.Coords, EltTy.bits .f32 = 32 ∨ (Rect.block (s := S96x96) S96x96.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S96.size a ≤ S96.size a
  hwx1_7 : ∀ i : grid1.Coords, EltTy.bits .f32 = 32 ∨ (Rect.block (s := S96) S96.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x96.size a ≤ S50000x96.size a
  hwx1_8 : ∀ i : grid1.Coords, EltTy.bits .f32 = 32 ∨ (Rect.block (s := S50000x96) S2000x96.size (cc1_transform_8 i) (hinb1_8 i)).WholeWords (EltTy.packing .f32)

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S2000x96_S96x96_S2000x96_1_0_0_1_n_n : DotDims S2000x96 S96x96 S2000x96 where
  lhsContracting := [1]
  rhsContracting := [0]
  lhsNonContracting := [0]
  rhsNonContracting := [1]
  lhsBatch := []
  rhsBatch := []
  wf := dot_S2000x96_S96x96_S2000x96_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

abbrev win0_0 : Pipeline.Window sig grid0 :=
  Pipeline.Window.ofSpec (Memref.whole main_arg0) S2000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S96x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S96x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S2000x96.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v14) S2000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S2000x96.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S96x96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S96x96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S96.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S96x96.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v37) S96x96.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg9) S96.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v38) S2000x96.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x96 : Shape := ⟨2, ![50000, 96]⟩
abbrev S2x800000 : Shape := ⟨2, ![2, 800000]⟩
abbrev S96x96 : Shape := ⟨2, ![96, 96]⟩
abbrev S96 : Shape := ⟨1, ![96]⟩
abbrev S96x192 : Shape := ⟨2, ![96, 192]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x96 : Shape := ⟨2, ![800000, 96]⟩
abbrev S1x96 : Shape := ⟨2, ![1, 96]⟩
abbrev S50000 : Shape := ⟨1, ![50000]⟩
abbrev S50000x1 : Shape := ⟨2, ![50000, 1]⟩
abbrev S50000x192 : Shape := ⟨2, ![50000, 192]⟩
abbrev S192x96 : Shape := ⟨2, ![192, 96]⟩

abbrev nBuf : Space → Nat
  | .hbm => 73
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S96x96, .f32⟩
  | .hbm, ⟨3, _⟩ => ⟨S96x96, .f32⟩
  | .hbm, ⟨4, _⟩ => ⟨S96, .f32⟩
  | .hbm, ⟨5, _⟩ => ⟨S96x96, .f32⟩
  | .hbm, ⟨6, _⟩ => ⟨S96x96, .f32⟩
  | .hbm, ⟨7, _⟩ => ⟨S96, .f32⟩
  | .hbm, ⟨8, _⟩ => ⟨S96x192, .f32⟩
  | .hbm, ⟨9, _⟩ => ⟨S96, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x96, .f32⟩
  | .hbm, ⟨23, _⟩ => ⟨S_, .f32⟩
  | .hbm, ⟨24, _⟩ => ⟨S50000x96, .f32⟩
  | .hbm, ⟨25, _⟩ => ⟨S800000x1, .i32⟩
  | .hbm, ⟨26, _⟩ => ⟨S50000x96, .f32⟩
  | .hbm, ⟨27, _⟩ => ⟨S50000x96, .f32⟩
  | .hbm, ⟨28, _⟩ => ⟨S50000x96, .f32⟩
  | .hbm, ⟨29, _⟩ => ⟨S50000x96, .f32⟩
  | .hbm, ⟨30, _⟩ => ⟨S1x96, .f32⟩
  | .hbm, ⟨31, _⟩ => ⟨S50000x96, .f32⟩
  | .hbm, ⟨32, _⟩ => ⟨S50000x96, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x96, .f32⟩
  | .hbm, ⟨42, _⟩ => ⟨S_, .f32⟩
  | .hbm, ⟨43, _⟩ => ⟨S50000x96, .f32⟩
  | .hbm, ⟨44, _⟩ => ⟨S800000x1, .i32⟩
  | .hbm, ⟨45, _⟩ => ⟨S50000x96, .f32⟩
  | .hbm, ⟨46, _⟩ => ⟨S_, .f32⟩
  | .hbm, ⟨47, _⟩ => ⟨S800000, .f32⟩
  | .hbm, ⟨48, _⟩ => ⟨S_, .f32⟩
  | .hbm, ⟨49, _⟩ => ⟨S50000, .f32⟩
  | .hbm, ⟨50, _⟩ => ⟨S800000x1, .i32⟩
  | .hbm, ⟨51, _⟩ => ⟨S50000, .f32⟩
  | .hbm, ⟨52, _⟩ => ⟨S_, .f32⟩
  | .hbm, ⟨53, _⟩ => ⟨S50000, .f32⟩
  | .hbm, ⟨54, _⟩ => ⟨S50000, .f32⟩
  | .hbm, ⟨55, _⟩ => ⟨S50000x1, .f32⟩
  | .hbm, ⟨56, _⟩ => ⟨S50000x96, .f32⟩
  | .hbm, ⟨57, _⟩ => ⟨S50000x96, .f32⟩
  | .hbm, ⟨58, _⟩ => ⟨S50000x96, .f32⟩
  | .hbm, ⟨59, _⟩ => ⟨S50000x96, .f32⟩
  | .hbm, ⟨60, _⟩ => ⟨S50000x96, .f32⟩
  | .hbm, ⟨61, _⟩ => ⟨S1x96, .f32⟩
  | .hbm, ⟨62, _⟩ => ⟨S50000x96, .f32⟩
  | .hbm, ⟨63, _⟩ => ⟨S50000x96, .f32⟩
  | .hbm, ⟨64, _⟩ => ⟨S50000x192, .f32⟩
  | .hbm, ⟨65, _⟩ => ⟨S192x96, .f32⟩
  | .hbm, ⟨66, _⟩ => ⟨S50000x96, .f32⟩
  | .hbm, ⟨67, _⟩ => ⟨S1x96, .f32⟩
  | .hbm, ⟨68, _⟩ => ⟨S50000x96, .f32⟩
  | .hbm, ⟨69, _⟩ => ⟨S50000x96, .f32⟩
  | .hbm, ⟨70, _⟩ => ⟨S_, .f32⟩
  | .hbm, ⟨71, _⟩ => ⟨S50000x96, .f32⟩
  | .hbm, ⟨72, _⟩ => ⟨S50000x96, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_1 : Ref sig .tc := ⟨.hbm, 33, rfl⟩
abbrev main_v20 : Ref sig .tc := ⟨.hbm, 34, rfl⟩
abbrev main_v21 : Ref sig .tc := ⟨.hbm, 35, rfl⟩
abbrev main_c_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_call0_cst : Ref sig .tc := ⟨.hbm, 70, rfl⟩
abbrev main_call0_v0 : Ref sig .tc := ⟨.hbm, 71, rfl⟩
abbrev main_v51 : Ref sig .tc := ⟨.hbm, 72, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  concatenates_S50000x96_S50000x96_S50000x192_d1 : Shape.Concatenates [S50000x96, S50000x96] S50000x192 1
  transposes_S96x192_S192x96_1_0 : S96x192.Transposes [1, 0] S192x96
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x96_S96x96_S50000x96_1_0_0_1_n_n_wf : DotDims.WF S50000x96 S96x96 S50000x96 [1] [0] [0] [1] [] []
  scatter_S50000_S800000x1_S800000_n_0_0_1_wf : ScatterDims.WF S50000 S800000x1 S800000 [] [0] [0] 1
  dot_S50000x192_S192x96_S50000x96_1_0_0_1_n_n_wf : DotDims.WF S50000x192 S192x96 S50000x96 [1] [0] [0] [1] [] []

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x192_S192x96_S50000x96_1_0_0_1_n_n : DotDims S50000x192 S192x96 S50000x96 where
  lhsContracting := [1]
  rhsContracting := [0]
  lhsNonContracting := [0]
  rhsNonContracting := [1]
  lhsBatch := []
  rhsBatch := []
  wf := dot_S50000x192_S192x96_S50000x96_1_0_0_1_n_n_wf

class Facts : Prop extends Facts₀ where

variable [Facts]
-- ==== Proof.Run.lean ====
/-
  The whole program's run with its result named.  The program is four stretches in a row: host operations, the
  first launch, host operations, the second launch.  The contents of every buffer at each of the four boundaries
  are a fold from the launch memory: a stretch of host operations applies each operation's function to the
  buffers it reads, and a launch leaves its windows' matrices at what its write-backs leave and every other
  buffer as it was.  Every weakly fair execution terminates without a fault in a state whose buffers hold the
  last boundary's contents; so the result buffer holds the last boundary's contents at the result, and each
  argument what it held at the start.
-/
import proofs.«170782_j10153302687984_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's
    contents and every argument as launched. -/
theorem run_result : θ_run defs (onTc (τ := τ) (main (F := F))) ⟨m, fun _ => 0, ρ⟩ (fun r => ∀ c : Dev nD,
      r.2.mem ((c.tc : Thread nD τ).loc main_v38) = W4 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v38 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.Run

end
-- ==== Proof.Layers.lean ====
/-
  The two dense stages of the network as plain functions of whole matrices over the extended reals.

  A node feature matrix has one row per node and 96 columns.  `conv h a wr wn b` is one graph-convolution
  layer: entry (r, q) is  Σₖ h[r,k]·wr[k,q] + Σₖ a[r,k]·wn[k,q] + b[q],  the node's own features through the
  root weights plus its aggregated neighbour features through the neighbour weights plus the bias.
  `mix h1 h2 u1 u2 b` is the read-out: entry (r, q) is  max(Σₖ h1[r,k]·u1[k,q] + Σₖ h2[r,k]·u2[k,q] + b[q], 0).
  Both are stated for any number of rows, so that the same function describes a block of rows and the
  whole matrix: row `r` of the result depends on row `r` of the row-indexed operands only (`conv_rows`,
  `mix_rows`).
-/
import Idealize.ShloMosaic.Lib.ValueIdx
import Idealize.ShloMosaic.PureOps.Ideal.Laws

noncomputable section

namespace Cert.GraphLayers

open Idealize.ShloMosaic Idealize.ShloMosaic.ValueIdx

/-- A matrix of extended reals with `r` rows and `c` columns. -/
abbrev Mat (r c : Nat) : Type := (⟨2, ![r, c]⟩ : Shape).Idx → EReal
/-- A vector of `n` extended reals. -/
abbrev Row (n : Nat) : Type := (⟨1, ![n]⟩ : Shape).Idx → EReal

/-- One graph-convolution layer: root term plus neighbour term plus bias, entry by entry. -/
def conv {n : Nat} (h a : Mat n 96) (wr wn : Mat 96 96) (b : Row 96) : Mat n 96 := fun i =>
  (∑ k : Fin 96, h (ix2 (i 0 : Fin n) k) * wr (ix2 k (i 1 : Fin 96))
    + ∑ k : Fin 96, a (ix2 (i 0 : Fin n) k) * wn (ix2 k (i 1 : Fin 96))) + b (ix1 (i 1 : Fin 96))

/-- The read-out: two products summed, the bias added, clamped below at the float zero. -/
def mix {n : Nat} (h1 h2 : Mat n 96) (u1 u2 : Mat 96 96) (b : Row 96) : Mat n 96 := fun i =>
  max ((∑ k : Fin 96, h1 (ix2 (i 0 : Fin n) k) * u1 (ix2 k (i 1 : Fin 96))
    + ∑ k : Fin 96, h2 (ix2 (i 0 : Fin n) k) * u2 (ix2 k (i 1 : Fin 96))) + b (ix1 (i 1 : Fin 96)))
    (Ideal.ofBits .f32 0x00000000#32)

theorem conv_apply {n : Nat} (h a : Mat n 96) (wr wn : Mat 96 96) (b : Row 96) (p : Fin n) (q : Fin 96) :
    conv h a wr wn b (ix2 p q)
      = (∑ k : Fin 96, h (ix2 p k) * wr (ix2 k q) + ∑ k : Fin 96, a (ix2 p k) * wn (ix2 k q)) + b (ix1 q) := rfl

theorem mix_apply {n : Nat} (h1 h2 : Mat n 96) (u1 u2 : Mat 96 96) (b : Row 96) (p : Fin n) (q : Fin 96) :
    mix h1 h2 u1 u2 b (ix2 p q)
      = max ((∑ k : Fin 96, h1 (ix2 p k) * u1 (ix2 k q) + ∑ k : Fin 96, h2 (ix2 p k) * u2 (ix2 k q)) + b (ix1 q))
          (Ideal.ofBits .f32 0x00000000#32) := rfl

/-- Row `p` of a layer computed on a block of rows is row `p'` of the layer computed on the whole matrices,
    when row `p` of each block operand is row `p'` of the whole operand. -/
theorem conv_rows {n N : Nat} (h a : Mat n 96) (H A : Mat N 96) (wr wn : Mat 96 96) (b : Row 96)
    (p : Fin n) (p' : Fin N) (hh : ∀ k : Fin 96, h (ix2 p k) = H (ix2 p' k))
    (ha : ∀ k : Fin 96, a (ix2 p k) = A (ix2 p' k)) (q : Fin 96) :
    conv h a wr wn b (ix2 p q) = conv H A wr wn b (ix2 p' q) := by
  rw [conv_apply, conv_apply]
  simp only [hh, ha]

/-- The general form: the row-indexed operands agree along the two rows, the weight matrices agree down column
    `q`, and the biases agree at `q`. -/
theorem conv_congr {n N : Nat} (h a : Mat n 96) (H A : Mat N 96) (wr wn Wr Wn : Mat 96 96) (b B : Row 96)
    (p : Fin n) (p' : Fin N) (q : Fin 96) (hh : ∀ k : Fin 96, h (ix2 p k) = H (ix2 p' k))
    (ha : ∀ k : Fin 96, a (ix2 p k) = A (ix2 p' k)) (hr : ∀ k : Fin 96, wr (ix2 k q) = Wr (ix2 k q))
    (hn : ∀ k : Fin 96, wn (ix2 k q) = Wn (ix2 k q)) (hb : b (ix1 q) = B (ix1 q)) :
    conv h a wr wn b (ix2 p q) = conv H A Wr Wn B (ix2 p' q) := by
  rw [conv_apply, conv_apply]
  simp only [hh, ha, hr, hn, hb]

theorem mix_congr {n N : Nat} (h1 h2 : Mat n 96) (H1 H2 : Mat N 96) (u1 u2 U1 U2 : Mat 96 96) (b B : Row 96)
    (p : Fin n) (p' : Fin N) (q : Fin 96) (e1 : ∀ k : Fin 96, h1 (ix2 p k) = H1 (ix2 p' k))
    (e2 : ∀ k : Fin 96, h2 (ix2 p k) = H2 (ix2 p' k)) (f1 : ∀ k : Fin 96, u1 (ix2 k q) = U1 (ix2 k q))
    (f2 : ∀ k : Fin 96, u2 (ix2 k q) = U2 (ix2 k q)) (hb : b (ix1 q) = B (ix1 q)) :
    mix h1 h2 u1 u2 b (ix2 p q) = mix H1 H2 U1 U2 B (ix2 p' q) := by
  rw [mix_apply, mix_apply]
  simp only [e1, e2, f1, f2, hb]

/-- The same for the read-out. -/
theorem mix_rows {n N : Nat} (h1 h2 : Mat n 96) (H1 H2 : Mat N 96) (u1 u2 : Mat 96 96) (b : Row 96)
    (p : Fin n) (p' : Fin N) (e1 : ∀ k : Fin 96, h1 (ix2 p k) = H1 (ix2 p' k))
    (e2 : ∀ k : Fin 96, h2 (ix2 p k) = H2 (ix2 p' k)) (q : Fin 96) :
    mix h1 h2 u1 u2 b (ix2 p q) = mix H1 H2 u1 u2 b (ix2 p' q) := by
  rw [mix_apply, mix_apply]
  simp only [e1, e2]

end Cert.GraphLayers

end
-- ==== Proof.Graph.lean ====
/-
  The parts of the network that both programs compute by the same operations on the host, named once and never
  opened: from the edge list the row of source nodes and the row of destination nodes; the sum over a node's
  incoming edges of the source nodes' features (`nbrSum`: gather the source rows, scatter-add them at the
  destinations, an out-of-range destination dropped); the same sum divided by the node's in-degree clamped below
  at one (`nbrMean`); and the two halves of the read-out weights, each transposed (`linLeft`, `linRight`).
  `network` is the whole function: the first layer on the raw features and their neighbour sums, the second layer
  on the first layer's result and its neighbour means, and the read-out of the two.
-/
import proofs.«170782_j10153302687984_1_alg».proof.Proof.Gen.KernelIdeal
import proofs.«170782_j10153302687984_1_alg».proof.Proof.Layers
import Idealize.ShloMosaic.Lib.Pipeline.Value
import Idealize.ShloMosaic.Lib.ValueIdx

noncomputable section

namespace Cert.KernelIdeal.Graph

open Cert.KernelIdeal Cert.KernelIdeal.Gen Cert.GraphLayers Idealize.ShloMosaic

variable {F : FTy → Type} [FloatOps F]

/-- Row 0 of the edge list: each edge's source node. -/
def srcRow (e : IVec S2x800000 32) : IVec S800000 32 :=
  shapeCast _ (extractStridedSlice S1x800000 ![0, 0] e slices_S2x800000_S1x800000_0_0) shapeCasts_S1x800000_S800000

/-- Row 1 of the edge list: each edge's destination node. -/
def dstRow (e : IVec S2x800000 32) : IVec S800000 32 :=
  shapeCast _ (extractStridedSlice S1x800000 ![1, 0] e slices_S2x800000_S1x800000_1_0) shapeCasts_S1x800000_S800000

/-- The source nodes as a column of gather indices, a negative index counted from the end. -/
def srcCol (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The destination nodes as a column of scatter indices. -/
def dstCol (d : IVec S800000 32) : IVec S800000x1 32 :=
  broadcastInDim S800000x1 ![0] bcast_S800000_S800000x1_0 d

/-- For every node, the sum of the feature rows of the sources of its incoming edges. -/
def nbrSumOf (h : FVec F S50000x96 .f32) (s d : IVec S800000 32) : FVec F S50000x96 .f32 :=
  Host.scatterAdd scatter_S50000x96_S800000x1_S800000x96_1_0_0_1
    (broadcastInDim S50000x96 ![] bcast_S_S50000x96 (constant S_ .f32 0x00000000#32)) (dstCol d)
    (Host.gather gather_S50000x96_S800000x1_S800000x96_1_0_n_n_0_1_196 h (srcCol s))

/-- For every node, its in-degree clamped below at one, repeated along the feature axis. -/
def degOf (d : IVec S800000 32) : FVec F S50000x96 .f32 :=
  broadcastInDim S50000x96 ![0, 1] bcast_S50000x1_S50000x96_0_1
    (broadcastInDim S50000x1 ![0] bcast_S50000_S50000x1_0
      (maximumf
        (Host.scatterAdd scatter_S50000_S800000x1_S800000_n_0_0_1
          (broadcastInDim S50000 ![] bcast_S_S50000 (constant S_ .f32 0x00000000#32)) (dstCol d)
          (broadcastInDim S800000 ![] bcast_S_S800000 (constant S_ .f32 0x3F800000#32)))
        (broadcastInDim S50000 ![] bcast_S_S50000 (constant S_ .f32 0x3F800000#32))))

/-- The neighbour sum divided by the clamped in-degree. -/
def nbrMeanOf (h : FVec F S50000x96 .f32) (s d : IVec S800000 32) : FVec F S50000x96 .f32 :=
  Host.divf (nbrSumOf h s d) (degOf d)

/-- Columns 0 … 95 of the read-out weights, transposed. -/
def linLeft (w : FVec F S96x192 .f32) : FVec F S96x96 .f32 :=
  transpose S96x96 [1, 0] (extractStridedSlice S96x96 ![0, 0] w slices_S96x192_S96x96_0_0) transposes_S96x96_S96x96_1_0

/-- Columns 96 … 191 of the read-out weights, transposed. -/
def linRight (w : FVec F S96x192 .f32) : FVec F S96x96 .f32 :=
  transpose S96x96 [1, 0] (extractStridedSlice S96x96 ![0, 96] w slices_S96x192_S96x96_0_96) transposes_S96x96_S96x96_1_0

/-- Entry (k, q) of the left half transposed is entry (q, k) of the read-out weights. -/
theorem linLeft_apply (w : FVec Ideal S96x192 .f32) (k q : Fin 96) :
    linLeft (F := Ideal) w (ValueIdx.ix2 k q) = w (ValueIdx.ix2 q (⟨k.val, by have := k.isLt; omega⟩ : Fin 192)) := by
  unfold linLeft
  refine (transpose_apply [1, 0] _ transposes_S96x96_S96x96_1_0 (ValueIdx.ix2 k q) (ValueIdx.ix2 q k) (fun b => match b with
    | ⟨0, _⟩ => rfl
    | ⟨1, _⟩ => rfl)).trans ?_
  exact extractStridedSlice_apply ![0, 0] w slices_S96x192_S96x96_0_0 (ValueIdx.ix2 q k) _ (fun a => match a with
    | ⟨0, _⟩ => by show q.val = 0 + q.val; omega
    | ⟨1, _⟩ => by show k.val = 0 + k.val; omega)

/-- Entry (k, q) of the right half transposed is entry (q, 96 + k) of the read-out weights. -/
theorem linRight_apply (w : FVec Ideal S96x192 .f32) (k q : Fin 96) :
    linRight (F := Ideal) w (ValueIdx.ix2 k q) = w (ValueIdx.ix2 q (⟨96 + k.val, by have := k.isLt; omega⟩ : Fin 192)) := by
  unfold linRight
  refine (transpose_apply [1, 0] _ transposes_S96x96_S96x96_1_0 (ValueIdx.ix2 k q) (ValueIdx.ix2 q k) (fun b => match b with
    | ⟨0, _⟩ => rfl
    | ⟨1, _⟩ => rfl)).trans ?_
  exact extractStridedSlice_apply ![0, 96] w slices_S96x192_S96x96_0_96 (ValueIdx.ix2 q k) _ (fun a => match a with
    | ⟨0, _⟩ => by show q.val = 0 + q.val; omega
    | ⟨1, _⟩ => by show 96 + k.val = 96 + k.val; rfl)

/-- The first layer's result from the arguments. -/
def hidden (x : FVec Ideal S50000x96 .f32) (e : IVec S2x800000 32) (w1r w1n : FVec Ideal S96x96 .f32)
    (b1 : FVec Ideal S96 .f32) : Mat 50000 96 :=
  conv (n := 50000) x (nbrSumOf (F := Ideal) x (srcRow e) (dstRow e)) w1r w1n b1

/-- The whole network from the arguments. -/
def network (x : FVec Ideal S50000x96 .f32) (e : IVec S2x800000 32) (w1r w1n : FVec Ideal S96x96 .f32)
    (b1 : FVec Ideal S96 .f32) (w2r w2n : FVec Ideal S96x96 .f32) (b2 : FVec Ideal S96 .f32)
    (lw : FVec Ideal S96x192 .f32) (lb : FVec Ideal S96 .f32) : Mat 50000 96 :=
  mix (n := 50000) (hidden x e w1r w1n b1)
    (conv (n := 50000) (hidden x e w1r w1n b1) (nbrMeanOf (F := Ideal) (hidden x e w1r w1n b1) (srcRow e) (dstRow e)) w2r w2n b2)
    (linLeft lw) (linRight lw) lb

end Cert.KernelIdeal.Graph

end
-- ==== Proof.Body.lean ====
/-
  What the two kernel bodies compute on one block of 2000 rows, entry by entry.

  At the ideal values a change of float format is the identity, and a matrix product accumulated into a zero
  matrix is the plain sum over the contracted axis.  So the first body's stored value is `conv` of its five
  loaded blocks, and the second body's is `mix` of its first block, of `conv` of its first five blocks, and
  of its last three.
-/
import proofs.«170782_j10153302687984_1_alg».proof.Proof.Gen.KernelIdeal.Skeleton
import proofs.«170782_j10153302687984_1_alg».proof.Proof.Layers
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Cert.GraphLayers
open Idealize.ShloMosaic Idealize.ShloMosaic.ValueIdx

/-- The contraction record of every product in the two bodies: rows of the left operand against columns of the right. -/
abbrev D := dot_S2000x96_S96x96_S2000x96_1_0_0_1_n_n

theorem lhs_row (i : S2000x96.Idx) (r : D.contr.Idx) : (D.lhsIdx i r 0).val = (i 0).val := by
  unfold DotDims.lhsIdx
  rw [dif_neg (show ¬(0 : Fin S2000x96.rank) ∈ D.lhsBatch by decide), dif_pos (show (0 : Fin S2000x96.rank) ∈ D.lhsNonContracting by decide)]
  rfl

theorem rhs_col (i : S2000x96.Idx) (r : D.contr.Idx) : (D.rhsIdx i r 1).val = (i 1).val := by
  unfold DotDims.rhsIdx
  rw [dif_neg (show ¬(1 : Fin S96x96.rank) ∈ D.rhsBatch by decide), dif_pos (show (1 : Fin S96x96.rank) ∈ D.rhsNonContracting by decide)]
  rfl

/-- A product into the zero matrix, at row `p` and column `q`: the sum over `k` of left[p,k] · right[k,q]. -/
theorem product_at {φ₁ φ₂ : FTy} (x : FVec Ideal S2000x96 φ₁) (w : FVec Ideal S96x96 φ₂) (p : Fin 2000) (q : Fin 96) :
    matmul D none x w (constant S2000x96 .f32 0x00000000#32) (ix2 p q) = ∑ k : Fin 96, x (ix2 p k) * w (ix2 k q) := by
  show FloatOps.matmul D none x w (constant S2000x96 .f32 0x00000000#32) (ix2 p q) = _
  rw [Ideal.matmul_constant_zero_apply, ← Equiv.sum_comp (contrEquiv1 D 96 rfl rfl).symm]
  refine Finset.sum_congr rfl fun k _ => ?_
  have hk := contrEquiv1_symm_val D 96 rfl rfl k
  have el : D.lhsIdx (ix2 p q) ((contrEquiv1 D 96 rfl rfl).symm k) = ix2 p k := funext fun a => Fin.ext (by
    match a with
    | ⟨0, _⟩ => exact lhs_row _ _
    | ⟨1, _⟩ => exact (D.lhsIdx_val_of_single rfl _ _).trans hk)
  have er : D.rhsIdx (ix2 p q) ((contrEquiv1 D 96 rfl rfl).symm k) = ix2 k q := funext fun a => Fin.ext (by
    match a with
    | ⟨0, _⟩ => exact (D.rhsIdx_val_of_single rfl _ _).trans hk
    | ⟨1, _⟩ => exact rhs_col _ _)
  rw [el, er]

/-- The bias vector laid along every row, at row `p` and column `q`: its entry `q`. -/
theorem bias_at (b : FVec Ideal S96 .f32) (p : Fin 2000) (q : Fin 96) :
    broadcastTo S2000x96 (shapeCast S1x96 b shapeCasts_S96_S1x96) broadcasts_S1x96_S2000x96 (ix2 p q) = b (ix1 q) := by
  have e1 := broadcastTo_apply (shapeCast S1x96 b shapeCasts_S96_S1x96) broadcasts_S1x96_S2000x96 (ix2 p q) (ix2 (0 : Fin 1) q) (by
    intro a
    match a with
    | ⟨0, _⟩ => rfl
    | ⟨1, _⟩ => show q.val = if (96 : Nat) = 1 then 0 else q.val; rw [if_neg (by decide)])
  have e2 := shapeCast_apply b shapeCasts_S96_S1x96 (ix2 (0 : Fin 1) q) (ix1 q) (by
    rw [Shape.rowMajor_val_two, Shape.rowMajor_val_one]; show q.val = 0 * 96 + q.val; omega)
  exact e1.trans e2

/-- The first body's stored value is one layer of its five loaded blocks. -/
theorem layer1_at (x0 x1 : Vec Ideal S2000x96 .f32) (x2 x3 : Vec Ideal S96x96 .f32) (x4 : Vec Ideal S96 .f32)
    (p : Fin 2000) (q : Fin 96) :
    k0_pay1 x0 x1 x2 x3 x4 (ix2 p q) = conv (n := 2000) x0 x1 x2 x3 x4 (ix2 p q) := by
  unfold k0_pay1
  rw [shapeCast_self]
  show matmul (F := Ideal) D none _ _ (constant (F := Ideal) S2000x96 .f32 0x00000000#32) (ix2 p q)
      + matmul (F := Ideal) D none _ _ (constant (F := Ideal) S2000x96 .f32 0x00000000#32) (ix2 p q)
      + broadcastTo (α := EReal) S2000x96 (shapeCast S1x96 x4 shapeCasts_S96_S1x96) broadcasts_S1x96_S2000x96 (ix2 p q) = _
  rw [product_at, product_at, bias_at]
  rfl

/-- The second body's stored value is the read-out of its first block, of one layer of its first five
    blocks, and of its last three. -/
theorem layer2_at (x0 x1 : Vec Ideal S2000x96 .f32) (x2 x3 : Vec Ideal S96x96 .f32) (x4 : Vec Ideal S96 .f32)
    (x5 x6 : Vec Ideal S96x96 .f32) (x7 : Vec Ideal S96 .f32) (p : Fin 2000) (q : Fin 96) :
    k1_pay1 x0 x1 x2 x3 x4 x5 x6 x7 (ix2 p q)
      = mix (n := 2000) x0 (conv (n := 2000) x0 x1 x2 x3 x4) x5 x6 x7 (ix2 p q) := by
  unfold k1_pay1
  simp only [shapeCast_self]
  show max (matmul (F := Ideal) D none _ _ (constant (F := Ideal) S2000x96 .f32 0x00000000#32) (ix2 p q)
      + matmul (F := Ideal) D none _ _ (constant (F := Ideal) S2000x96 .f32 0x00000000#32) (ix2 p q)
      + broadcastTo (α := EReal) S2000x96 (shapeCast S1x96 x7 shapeCasts_S96_S1x96) broadcasts_S1x96_S2000x96 (ix2 p q)) _ = _
  rw [product_at, product_at, bias_at, mix_apply]
  refine congrArg₂ max (congrArg₂ (· + ·) (congrArg₂ (· + ·) rfl (Finset.sum_congr rfl fun k _ => ?_)) rfl) rfl
  refine congrArg₂ (· * ·) ?_ rfl
  show (addf (addf (matmul (F := Ideal) D none _ _ (constant (F := Ideal) S2000x96 .f32 0x00000000#32)) (matmul (F := Ideal) D none _ _ (constant (F := Ideal) S2000x96 .f32 0x00000000#32)))
      (broadcastTo (α := EReal) S2000x96 (shapeCast S1x96 x4 shapeCasts_S96_S1x96) broadcasts_S1x96_S2000x96)) (ix2 p k) = _
  show matmul (F := Ideal) D none _ _ (constant (F := Ideal) S2000x96 .f32 0x00000000#32) (ix2 p k)
      + matmul (F := Ideal) D none _ _ (constant (F := Ideal) S2000x96 .f32 0x00000000#32) (ix2 p k)
      + broadcastTo (α := EReal) S2000x96 (shapeCast S1x96 x4 shapeCasts_S96_S1x96) broadcasts_S1x96_S2000x96 (ix2 p k) = _
  rw [product_at, product_at, bias_at]
  rfl

end Cert.KernelIdeal.Body

end
-- ==== Proof.Blocks0.lean ====
/-
  The first layer's result matrix.  Grid point `t` of the first launch works on rows 2000·t … 2000·t + 1999:
  it stages those rows of the node features and of the aggregated neighbour features, the two whole weight
  matrices and the whole bias, and writes back the layer's value on those rows.  A row of the layer depends on
  the same row of the row-indexed operands only, so what point `t` writes back is rows 2000·t … of the layer of
  the WHOLE matrices; the 25 blocks tile the 50000 rows; hence the result matrix is the layer of the whole
  matrices as the launch finds them.
-/
import proofs.«170782_j10153302687984_1_alg».proof.Proof.Gen.KernelIdeal.Frame
import proofs.«170782_j10153302687984_1_alg».proof.Proof.Body
import Idealize.ShloMosaic.Lib.Pipeline.Value

set_option maxRecDepth 16384

noncomputable section

namespace Cert.KernelIdeal.Blocks

open Cert.KernelIdeal Cert.KernelIdeal.Gen Cert.GraphLayers
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- The block indices of the first launch's windows, decided over its 25 points: the row-indexed windows are at
    block row `t`, block column 0; the weights and the bias at block 0. -/
theorem blockIdx0 : ∀ t : Fin cfg0.N, t.val < 25
    ∧ win0_5.index t (0 : Fin 2) = t.val ∧ win0_5.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0 :=
  (by decide +kernel : ∀ t : Fin grid0.N, _)

/-- Every block row is some point's. -/
theorem blockOnto0 : ∀ r : Fin 25, ∃ t : Fin cfg0.N, win0_5.index t = ![r.val, 0] :=
  (by decide +kernel : ∀ r : Fin 25, ∃ t : Fin grid0.N, win0_5.index t = ![r.val, 0])

/-- What point `t` writes back is its block of rows of the layer of the whole matrices. -/
theorem flushed0 (c : Dev nD) (t : Fin cfg0.N) :
    (dat0 V c).flushed 5 t = ((cfg0.win 5).blk t).view.read (Elt Ideal)
      (conv (n := 50000) (V c main_arg0) (V c main_v13) (V c main_arg2) (V c main_arg3) (V c main_arg4)) := by
  show (cfg0.win 5).cut (grid0.coords t) ((dat0 V c).after 5 t) = _
  rw [after0_5]
  unfold out0_5
  rw [View.canon_unit_zero zero2]
  simp only [View.ld_unit_zero (S := S2000x96) zero2, View.ld_unit_zero (S := S96x96) zero2, View.ld_unit_zero (S := S96) zero1]
  obtain ⟨ht, o0, o1, a0, a1, b0, b1, c0, c1, d0, d1, e0⟩ := blockIdx0 t
  funext j
  obtain ⟨p, q, rfl⟩ : ∃ (p : Fin 2000) (q : Fin 96), j = ix2 p q := ⟨j 0, j 1, eq_ix2 j⟩
  have hp : p.val < 2000 := p.isLt
  have hq : q.val < 96 := q.isLt
  let p' : Fin 50000 := ⟨t.val * 2000 + p.val, by omega⟩
  have hout : ((cfg0.win 5).blk t).view.emb (ix2 p q) = ix2 p' q := by
    funext a; apply Fin.ext
    match a with
    | ⟨0, _⟩ => show win0_5.index t (0 : Fin 2) * 2000 + 1 * p.val = t.val * 2000 + p.val; omega
    | ⟨1, _⟩ => show win0_5.index t (1 : Fin 2) * 96 + 1 * q.val = q.val; omega
  show k0_pay1 (iblk0 V c 0 t) (iblk0 V c 1 t) (iblk0 V c 2 t) (iblk0 V c 3 t) (iblk0 V c 4 t) (ix2 p q)
    = conv (n := 50000) (V c main_arg0) (V c main_v13) (V c main_arg2) (V c main_arg3) (V c main_arg4)
        (((cfg0.win 5).blk t).view.emb (ix2 p q))
  rw [hout]
  refine (Body.layer1_at (iblk0 V c 0 t) (iblk0 V c 1 t) (iblk0 V c 2 t) (iblk0 V c 3 t) (iblk0 V c 4 t) p q).trans ?_
  refine conv_congr _ _ _ _ _ _ _ _ _ _ p p' q (fun k => ?_) (fun k => ?_) (fun k => ?_) (fun k => ?_) ?_
  · have hk : k.val < 96 := k.isLt
    show V c main_arg0 (((cfg0.win 0).blk t).view.emb (ix2 p k)) = V c main_arg0 (ix2 p' k)
    refine congrArg _ (funext fun a => Fin.ext ?_)
    match a with
    | ⟨0, _⟩ => show win0_0.index t (0 : Fin 2) * 2000 + 1 * p.val = t.val * 2000 + p.val; omega
    | ⟨1, _⟩ => show win0_0.index t (1 : Fin 2) * 96 + 1 * k.val = k.val; omega
  · have hk : k.val < 96 := k.isLt
    show V c main_v13 (((cfg0.win 1).blk t).view.emb (ix2 p k)) = V c main_v13 (ix2 p' k)
    refine congrArg _ (funext fun a => Fin.ext ?_)
    match a with
    | ⟨0, _⟩ => show win0_1.index t (0 : Fin 2) * 2000 + 1 * p.val = t.val * 2000 + p.val; omega
    | ⟨1, _⟩ => show win0_1.index t (1 : Fin 2) * 96 + 1 * k.val = k.val; omega
  · have hk : k.val < 96 := k.isLt
    show V c main_arg2 (((cfg0.win 2).blk t).view.emb (ix2 k q)) = V c main_arg2 (ix2 k q)
    refine congrArg _ (funext fun a => Fin.ext ?_)
    match a with
    | ⟨0, _⟩ => show win0_2.index t (0 : Fin 2) * 96 + 1 * k.val = k.val; omega
    | ⟨1, _⟩ => show win0_2.index t (1 : Fin 2) * 96 + 1 * q.val = q.val; omega
  · have hk : k.val < 96 := k.isLt
    show V c main_arg3 (((cfg0.win 3).blk t).view.emb (ix2 k q)) = V c main_arg3 (ix2 k q)
    refine congrArg _ (funext fun a => Fin.ext ?_)
    match a with
    | ⟨0, _⟩ => show win0_3.index t (0 : Fin 2) * 96 + 1 * k.val = k.val; omega
    | ⟨1, _⟩ => show win0_3.index t (1 : Fin 2) * 96 + 1 * q.val = q.val; omega
  · show V c main_arg4 (((cfg0.win 4).blk t).view.emb (ix1 q)) = V c main_arg4 (ix1 q)
    refine congrArg _ (funext fun a => Fin.ext ?_)
    match a with
    | ⟨0, _⟩ => show win0_4.index t (0 : Fin 1) * 96 + 1 * q.val = q.val; omega

/-- An entry of the result matrix is in point `t`'s block iff each coordinate is in the block's range on its axis. -/
theorem mem_block0 (t : Fin cfg0.N) (i : S50000x96.Idx) :
    i ∈ ((cfg0.win 5).blk t).view.set ↔ ∀ a : Fin 2, win0_5.index t a * S2000x96.size a ≤ (i a).val ∧ (i a).val < win0_5.index t a * S2000x96.size a + S2000x96.size a := by
  show i ∈ ((View.whole main_v14).slice (win0_5.rect t)).set ↔ _
  rw [View.set_slice_whole, Rect.mem_set_unit]
  exact Iff.rfl

/-- Row `r` is in the block of point `r / 2000`. -/
theorem cover0 (i : S50000x96.Idx) : ∃ t : Fin cfg0.N, (cfg0.win 5).flush t = true ∧ i ∈ ((cfg0.win 5).blk t).view.set := by
  have hi0 : (i 0).val < 50000 := (i 0).isLt
  have hi1 : (i 1).val < 96 := (i 1).isLt
  obtain ⟨t, ht⟩ := blockOnto0 ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [mem_block0]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 96 ≤ (i 1).val ∧ (i 1).val < win0_5.index t (1 : Fin 2) * 96 + 96; omega

/-- The first launch's result matrix is one layer of the matrices as the launch finds them. -/
theorem result0 (c : Dev nD) :
    (dat0 V c).arrAt 5 cfg0.N
      = conv (n := 50000) (V c main_arg0) (V c main_v13) (V c main_arg2) (V c main_arg3) (V c main_arg4) :=
  (dat0 V c).arrAt_eq_of_cover 5 _ (fun t _ => flushed0 V c t) cover0

end Cert.KernelIdeal.Blocks

end
-- ==== Proof.Blocks1.lean ====
/-
  The second launch's result matrix.  Grid point `t` works on rows 2000·t … 2000·t + 1999: it stages those rows
  of the first layer's result and of the normalised neighbour features, four whole weight matrices and two
  whole biases, computes the second layer on those rows, and writes back the read-out of the two layers on
  those rows.  Both stages are row-local, so point `t` writes rows 2000·t … of the read-out of the WHOLE
  matrices; the 25 blocks tile the 50000 rows.
-/
import proofs.«170782_j10153302687984_1_alg».proof.Proof.Gen.KernelIdeal.Frame
import proofs.«170782_j10153302687984_1_alg».proof.Proof.Body
import Idealize.ShloMosaic.Lib.Pipeline.Value

set_option maxRecDepth 16384

noncomputable section

namespace Cert.KernelIdeal.Blocks

open Cert.KernelIdeal Cert.KernelIdeal.Gen Cert.GraphLayers
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a; rfl

/-- The block indices of the second launch's windows, decided over its 25 points: the row-indexed windows are at
    block row `t`, block column 0; the weights and the biases at block 0. -/
theorem blockIdx1 : ∀ t : Fin cfg1.N, t.val < 25
    ∧ win1_8.index t (0 : Fin 2) = t.val ∧ win1_8.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 1) = 0 :=
  (by decide +kernel : ∀ t : Fin grid1.N, _)

/-- Every block row is some point's. -/
theorem blockOnto1 : ∀ r : Fin 25, ∃ t : Fin cfg1.N, win1_8.index t = ![r.val, 0] :=
  (by decide +kernel : ∀ r : Fin 25, ∃ t : Fin grid1.N, win1_8.index t = ![r.val, 0])

/-- What point `t` writes back is its block of rows of the read-out of the whole matrices. -/
theorem flushed1 (c : Dev nD) (t : Fin cfg1.N) :
    (dat1 V c).flushed 8 t = ((cfg1.win 8).blk t).view.read (Elt Ideal)
      (mix (n := 50000) (V c main_v14)
        (conv (n := 50000) (V c main_v14) (V c main_v33) (V c main_arg5) (V c main_arg6) (V c main_arg7))
        (V c main_v35) (V c main_v37) (V c main_arg9)) := by
  show (cfg1.win 8).cut (grid1.coords t) ((dat1 V c).after 8 t) = _
  rw [after1_8]
  unfold out1_8
  rw [View.canon_unit_zero origin2]
  simp only [View.ld_unit_zero (S := S2000x96) origin2, View.ld_unit_zero (S := S96x96) origin2, View.ld_unit_zero (S := S96) origin1]
  obtain ⟨ht, o0, o1, a0, a1, b0, b1, c0, c1, d0, d1, e0, f0, f1, g0, g1, h0⟩ := blockIdx1 t
  funext j
  obtain ⟨p, q, rfl⟩ : ∃ (p : Fin 2000) (q : Fin 96), j = ix2 p q := ⟨j 0, j 1, eq_ix2 j⟩
  have hp : p.val < 2000 := p.isLt
  let p' : Fin 50000 := ⟨t.val * 2000 + p.val, by omega⟩
  have hout : ((cfg1.win 8).blk t).view.emb (ix2 p q) = ix2 p' q := by
    have hq : q.val < 96 := q.isLt
    funext a; apply Fin.ext
    match a with
    | ⟨0, _⟩ => show win1_8.index t (0 : Fin 2) * 2000 + 1 * p.val = t.val * 2000 + p.val; omega
    | ⟨1, _⟩ => show win1_8.index t (1 : Fin 2) * 96 + 1 * q.val = q.val; omega
  -- the rows of the two row-indexed blocks are rows of the whole matrices
  have r0 : ∀ k : Fin 96, iblk1 V c 0 t (ix2 p k) = V c main_v14 (ix2 p' k) := fun k => by
    have hk : k.val < 96 := k.isLt
    show V c main_v14 (((cfg1.win 0).blk t).view.emb (ix2 p k)) = V c main_v14 (ix2 p' k)
    refine congrArg _ (funext fun a => Fin.ext ?_)
    match a with
    | ⟨0, _⟩ => show win1_0.index t (0 : Fin 2) * 2000 + 1 * p.val = t.val * 2000 + p.val; omega
    | ⟨1, _⟩ => show win1_0.index t (1 : Fin 2) * 96 + 1 * k.val = k.val; omega
  have r1 : ∀ k : Fin 96, iblk1 V c 1 t (ix2 p k) = V c main_v33 (ix2 p' k) := fun k => by
    have hk : k.val < 96 := k.isLt
    show V c main_v33 (((cfg1.win 1).blk t).view.emb (ix2 p k)) = V c main_v33 (ix2 p' k)
    refine congrArg _ (funext fun a => Fin.ext ?_)
    match a with
    | ⟨0, _⟩ => show win1_1.index t (0 : Fin 2) * 2000 + 1 * p.val = t.val * 2000 + p.val; omega
    | ⟨1, _⟩ => show win1_1.index t (1 : Fin 2) * 96 + 1 * k.val = k.val; omega
  -- the weight and bias blocks are the whole matrices and vectors
  have w2 : ∀ k l : Fin 96, iblk1 V c 2 t (ix2 k l) = V c main_arg5 (ix2 k l) := fun k l => by
    have hk : k.val < 96 := k.isLt
    have hl : l.val < 96 := l.isLt
    show V c main_arg5 (((cfg1.win 2).blk t).view.emb (ix2 k l)) = V c main_arg5 (ix2 k l)
    refine congrArg _ (funext fun a => Fin.ext ?_)
    match a with
    | ⟨0, _⟩ => show win1_2.index t (0 : Fin 2) * 96 + 1 * k.val = k.val; omega
    | ⟨1, _⟩ => show win1_2.index t (1 : Fin 2) * 96 + 1 * l.val = l.val; omega
  have w3 : ∀ k l : Fin 96, iblk1 V c 3 t (ix2 k l) = V c main_arg6 (ix2 k l) := fun k l => by
    have hk : k.val < 96 := k.isLt
    have hl : l.val < 96 := l.isLt
    show V c main_arg6 (((cfg1.win 3).blk t).view.emb (ix2 k l)) = V c main_arg6 (ix2 k l)
    refine congrArg _ (funext fun a => Fin.ext ?_)
    match a with
    | ⟨0, _⟩ => show win1_3.index t (0 : Fin 2) * 96 + 1 * k.val = k.val; omega
    | ⟨1, _⟩ => show win1_3.index t (1 : Fin 2) * 96 + 1 * l.val = l.val; omega
  have w4 : ∀ l : Fin 96, iblk1 V c 4 t (ix1 l) = V c main_arg7 (ix1 l) := fun l => by
    have hl : l.val < 96 := l.isLt
    show V c main_arg7 (((cfg1.win 4).blk t).view.emb (ix1 l)) = V c main_arg7 (ix1 l)
    refine congrArg _ (funext fun a => Fin.ext ?_)
    match a with
    | ⟨0, _⟩ => show win1_4.index t (0 : Fin 1) * 96 + 1 * l.val = l.val; omega
  have w5 : ∀ k l : Fin 96, iblk1 V c 5 t (ix2 k l) = V c main_v35 (ix2 k l) := fun k l => by
    have hk : k.val < 96 := k.isLt
    have hl : l.val < 96 := l.isLt
    show V c main_v35 (((cfg1.win 5).blk t).view.emb (ix2 k l)) = V c main_v35 (ix2 k l)
    refine congrArg _ (funext fun a => Fin.ext ?_)
    match a with
    | ⟨0, _⟩ => show win1_5.index t (0 : Fin 2) * 96 + 1 * k.val = k.val; omega
    | ⟨1, _⟩ => show win1_5.index t (1 : Fin 2) * 96 + 1 * l.val = l.val; omega
  have w6 : ∀ k l : Fin 96, iblk1 V c 6 t (ix2 k l) = V c main_v37 (ix2 k l) := fun k l => by
    have hk : k.val < 96 := k.isLt
    have hl : l.val < 96 := l.isLt
    show V c main_v37 (((cfg1.win 6).blk t).view.emb (ix2 k l)) = V c main_v37 (ix2 k l)
    refine congrArg _ (funext fun a => Fin.ext ?_)
    match a with
    | ⟨0, _⟩ => show win1_6.index t (0 : Fin 2) * 96 + 1 * k.val = k.val; omega
    | ⟨1, _⟩ => show win1_6.index t (1 : Fin 2) * 96 + 1 * l.val = l.val; omega
  have w7 : ∀ l : Fin 96, iblk1 V c 7 t (ix1 l) = V c main_arg9 (ix1 l) := fun l => by
    have hl : l.val < 96 := l.isLt
    show V c main_arg9 (((cfg1.win 7).blk t).view.emb (ix1 l)) = V c main_arg9 (ix1 l)
    refine congrArg _ (funext fun a => Fin.ext ?_)
    match a with
    | ⟨0, _⟩ => show win1_7.index t (0 : Fin 1) * 96 + 1 * l.val = l.val; omega
  show k1_pay1 (iblk1 V c 0 t) (iblk1 V c 1 t) (iblk1 V c 2 t) (iblk1 V c 3 t) (iblk1 V c 4 t) (iblk1 V c 5 t) (iblk1 V c 6 t) (iblk1 V c 7 t) (ix2 p q)
    = mix (n := 50000) (V c main_v14)
        (conv (n := 50000) (V c main_v14) (V c main_v33) (V c main_arg5) (V c main_arg6) (V c main_arg7))
        (V c main_v35) (V c main_v37) (V c main_arg9) (((cfg1.win 8).blk t).view.emb (ix2 p q))
  rw [hout]
  refine (Body.layer2_at (iblk1 V c 0 t) (iblk1 V c 1 t) (iblk1 V c 2 t) (iblk1 V c 3 t) (iblk1 V c 4 t) (iblk1 V c 5 t) (iblk1 V c 6 t) (iblk1 V c 7 t) p q).trans ?_
  exact mix_congr _ _ _ _ _ _ _ _ _ _ p p' q r0
    (fun k => conv_congr _ _ _ _ _ _ _ _ _ _ p p' k r0 r1 (fun l => w2 l k) (fun l => w3 l k) (w4 k))
    (fun k => w5 k q) (fun k => w6 k q) (w7 q)

/-- An entry of the result matrix is in point `t`'s block iff each coordinate is in the block's range on its axis. -/
theorem mem_block1 (t : Fin cfg1.N) (i : S50000x96.Idx) :
    i ∈ ((cfg1.win 8).blk t).view.set ↔ ∀ a : Fin 2, win1_8.index t a * S2000x96.size a ≤ (i a).val ∧ (i a).val < win1_8.index t a * S2000x96.size a + S2000x96.size a := by
  show i ∈ ((View.whole main_v38).slice (win1_8.rect t)).set ↔ _
  rw [View.set_slice_whole, Rect.mem_set_unit]
  exact Iff.rfl

/-- Row `r` is in the block of point `r / 2000`. -/
theorem cover1 (i : S50000x96.Idx) : ∃ t : Fin cfg1.N, (cfg1.win 8).flush t = true ∧ i ∈ ((cfg1.win 8).blk t).view.set := by
  have hi0 : (i 0).val < 50000 := (i 0).isLt
  have hi1 : (i 1).val < 96 := (i 1).isLt
  obtain ⟨t, ht⟩ := blockOnto1 ⟨(i 0).val / 2000, by omega⟩
  have q0 : win1_8.index t (0 : Fin 2) = (i 0).val / 2000 := congrFun ht 0
  have q1 : win1_8.index t (1 : Fin 2) = 0 := congrFun ht 1
  refine ⟨t, flush1_8 t, ?_⟩
  rw [mem_block1]
  intro a
  match a with
  | ⟨0, _⟩ => show win1_8.index t (0 : Fin 2) * 2000 ≤ (i 0).val ∧ (i 0).val < win1_8.index t (0 : Fin 2) * 2000 + 2000; omega
  | ⟨1, _⟩ => show win1_8.index t (1 : Fin 2) * 96 ≤ (i 1).val ∧ (i 1).val < win1_8.index t (1 : Fin 2) * 96 + 96; omega

/-- The second launch's result matrix is the read-out of the matrices as the launch finds them. -/
theorem result1 (c : Dev nD) :
    (dat1 V c).arrAt 8 cfg1.N
      = mix (n := 50000) (V c main_v14)
          (conv (n := 50000) (V c main_v14) (V c main_v33) (V c main_arg5) (V c main_arg6) (V c main_arg7))
          (V c main_v35) (V c main_v37) (V c main_arg9) :=
  (dat1 V c).arrAt_eq_of_cover 8 _ (fun t _ => flushed1 V c t) cover1

end Cert.KernelIdeal.Blocks

end
-- ==== Proof.Boundaries.lean ====
/-
  The buffer contents at the program's boundaries, read back to the arguments.

  Before the first launch the host computes the source and destination rows and the neighbour sums of the raw
  features; every argument is untouched.  The first launch leaves one layer of those in its result matrix and
  every other buffer as it was.  Before the second launch the host computes the neighbour means of that result
  and the two transposed halves of the read-out weights.  The second launch leaves the read-out in the
  program's result.  Composed: the result is `network` of the arguments.
-/
import proofs.«170782_j10153302687984_1_alg».proof.Proof.Gen.KernelIdeal.Frame
import proofs.«170782_j10153302687984_1_alg».proof.Proof.Graph
import proofs.«170782_j10153302687984_1_alg».proof.Proof.Blocks0
import proofs.«170782_j10153302687984_1_alg».proof.Proof.Blocks1
import Idealize.ShloMosaic.Lib.StableHlo.Run

set_option maxRecDepth 16384

noncomputable section

namespace Cert.KernelIdeal.Boundaries

open Cert.KernelIdeal Cert.KernelIdeal.Gen Cert.KernelIdeal.Graph Cert.GraphLayers
open Idealize.ShloMosaic Idealize.ShloMosaic.TcCoe Idealize.SL.Sem Idealize.ShloMosaic.StableHlo

variable (m : (ℓ : Loc nD τ sig) → Buf (Elt Ideal) ℓ) (ρ : Dev nD → PrngReg)

/-! ## Entering the first launch -/

theorem in0_x (c : Dev nD) : V1 m ρ c main_arg0 = m ((c : Thread nD τ).loc main_arg0) := by
  dsimp only [V1, W1, hostOps0]; after_results
theorem in0_wr (c : Dev nD) : V1 m ρ c main_arg2 = m ((c : Thread nD τ).loc main_arg2) := by
  dsimp only [V1, W1, hostOps0]; after_results
theorem in0_wn (c : Dev nD) : V1 m ρ c main_arg3 = m ((c : Thread nD τ).loc main_arg3) := by
  dsimp only [V1, W1, hostOps0]; after_results
theorem in0_b (c : Dev nD) : V1 m ρ c main_arg4 = m ((c : Thread nD τ).loc main_arg4) := by
  dsimp only [V1, W1, hostOps0]; after_results
theorem in0_agg (c : Dev nD) :
    V1 m ρ c main_v13 = nbrSumOf (F := Ideal) (m ((c : Thread nD τ).loc main_arg0))
      (srcRow (m ((c : Thread nD τ).loc main_arg1))) (dstRow (m ((c : Thread nD τ).loc main_arg1))) := by
  dsimp only [V1, W1, hostOps0]; after_results; rfl

/-- The source and destination rows, computed before the first launch, as both launches' surroundings read them. -/
theorem src1 (c : Dev nD) : W1 m ρ c (Proc.devRef .tc main_v1) = srcRow (m ((c : Thread nD τ).loc main_arg1)) := by
  dsimp only [W1, hostOps0]; after_results; rfl
theorem dst1 (c : Dev nD) : W1 m ρ c (Proc.devRef .tc main_v3) = dstRow (m ((c : Thread nD τ).loc main_arg1)) := by
  dsimp only [W1, hostOps0]; after_results; rfl

/-! ## Leaving the first launch -/

/-- The first launch's result: the first layer of the arguments. -/
theorem out0 (c : Dev nD) :
    W2 m ρ c (Proc.devRef .tc main_v14)
      = hidden (m ((c : Thread nD τ).loc main_arg0)) (m ((c : Thread nD τ).loc main_arg1))
          (m ((c : Thread nD τ).loc main_arg2)) (m ((c : Thread nD τ).loc main_arg3)) (m ((c : Thread nD τ).loc main_arg4)) := by
  refine (W2_arr m ρ c 5).trans ((Blocks.result0 (V1 m ρ) c).trans ?_)
  rw [in0_x, in0_wr, in0_wn, in0_b, in0_agg]
  rfl

/-- A buffer that is no window of the first launch keeps its contents through it. -/
theorem keep0 (c : Dev nD) (b : Ref sig .tc) (hb : ∀ w, Pipeline.arrRef spec0 w ≠ b) :
    W2 m ρ c (Proc.devRef .tc b) = W1 m ρ c (Proc.devRef .tc b) := W2_of_ne m ρ c b hb

theorem mid_src (c : Dev nD) : W2 m ρ c (Proc.devRef .tc main_v1) = srcRow (m ((c : Thread nD τ).loc main_arg1)) :=
  (keep0 m ρ c main_v1 (by decide)).trans (src1 m ρ c)
theorem mid_dst (c : Dev nD) : W2 m ρ c (Proc.devRef .tc main_v3) = dstRow (m ((c : Thread nD τ).loc main_arg1)) :=
  (keep0 m ρ c main_v3 (by decide)).trans (dst1 m ρ c)
theorem mid_w2r (c : Dev nD) : W2 m ρ c (Proc.devRef .tc main_arg5) = m ((c : Thread nD τ).loc main_arg5) :=
  (keep0 m ρ c main_arg5 (by decide)).trans (by dsimp only [W1, hostOps0]; after_results)
theorem mid_w2n (c : Dev nD) : W2 m ρ c (Proc.devRef .tc main_arg6) = m ((c : Thread nD τ).loc main_arg6) :=
  (keep0 m ρ c main_arg6 (by decide)).trans (by dsimp only [W1, hostOps0]; after_results)
theorem mid_b2 (c : Dev nD) : W2 m ρ c (Proc.devRef .tc main_arg7) = m ((c : Thread nD τ).loc main_arg7) :=
  (keep0 m ρ c main_arg7 (by decide)).trans (by dsimp only [W1, hostOps0]; after_results)
theorem mid_lw (c : Dev nD) : W2 m ρ c (Proc.devRef .tc main_arg8) = m ((c : Thread nD τ).loc main_arg8) :=
  (keep0 m ρ c main_arg8 (by decide)).trans (by dsimp only [W1, hostOps0]; after_results)
theorem mid_lb (c : Dev nD) : W2 m ρ c (Proc.devRef .tc main_arg9) = m ((c : Thread nD τ).loc main_arg9) :=
  (keep0 m ρ c main_arg9 (by decide)).trans (by dsimp only [W1, hostOps0]; after_results)

/-! ## Entering the second launch -/

theorem in1_h (c : Dev nD) : V3 m ρ c main_v14 = W2 m ρ c (Proc.devRef .tc main_v14) := by
  dsimp only [V3, W3, hostOps1]; after_results
theorem in1_wr (c : Dev nD) : V3 m ρ c main_arg5 = W2 m ρ c (Proc.devRef .tc main_arg5) := by
  dsimp only [V3, W3, hostOps1]; after_results
theorem in1_wn (c : Dev nD) : V3 m ρ c main_arg6 = W2 m ρ c (Proc.devRef .tc main_arg6) := by
  dsimp only [V3, W3, hostOps1]; after_results
theorem in1_b (c : Dev nD) : V3 m ρ c main_arg7 = W2 m ρ c (Proc.devRef .tc main_arg7) := by
  dsimp only [V3, W3, hostOps1]; after_results
theorem in1_lb (c : Dev nD) : V3 m ρ c main_arg9 = W2 m ρ c (Proc.devRef .tc main_arg9) := by
  dsimp only [V3, W3, hostOps1]; after_results
theorem in1_agg (c : Dev nD) :
    V3 m ρ c main_v33 = nbrMeanOf (F := Ideal) (W2 m ρ c (Proc.devRef .tc main_v14))
      (W2 m ρ c (Proc.devRef .tc main_v1)) (W2 m ρ c (Proc.devRef .tc main_v3)) := by
  dsimp only [V3, W3, hostOps1]; after_results; rfl
theorem in1_u1 (c : Dev nD) : V3 m ρ c main_v35 = linLeft (F := Ideal) (W2 m ρ c (Proc.devRef .tc main_arg8)) := by
  dsimp only [V3, W3, hostOps1]; after_results; rfl
theorem in1_u2 (c : Dev nD) : V3 m ρ c main_v37 = linRight (F := Ideal) (W2 m ρ c (Proc.devRef .tc main_arg8)) := by
  dsimp only [V3, W3, hostOps1]; after_results; rfl

/-! ## The program's result -/

/-- The result buffer after the run holds the network's value on the arguments. -/
theorem result (c : Dev nD) :
    W4 m ρ c (Proc.devRef .tc main_v38)
      = network (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) := by
  refine (W4_arr m ρ c 8).trans ((Blocks.result1 (V3 m ρ) c).trans ?_)
  rw [in1_h, in1_wr, in1_wn, in1_b, in1_lb, in1_agg, in1_u1, in1_u2,
    out0, mid_src, mid_dst, mid_w2r, mid_w2n, mid_b2, mid_lw, mid_lb]
  rfl

end Cert.KernelIdeal.Boundaries

end
-- ==== Proof.Reference.lean ====
/-
  The reference computes the same function of the arguments.

  Its host operations, read at an index: the two layers are the same three-term sums as `conv` (a host matrix
  product is the sum over the contracted axis), over the same gather / scatter-add neighbour aggregations, which
  are never opened.  Its read-out multiplies the two layers' results laid side by side (192 columns) by the
  transposed 96 × 192 weights: a sum over 192 indices, which splits into the sum over the first 96 (first layer
  against the weights' left half) and over the last 96 (second layer against the right half) — addition of
  extended reals is commutative and associative, so the split needs no finiteness.
-/
import proofs.«170782_j10153302687984_1_alg».proof.Proof.Gen.ReferenceIdeal.Read
import proofs.«170782_j10153302687984_1_alg».proof.Proof.Graph
import Idealize.ShloMosaic.Lib.Pipeline.Value
import Idealize.ShloMosaic.Lib.ValueIdx

noncomputable section

namespace Cert.ReferenceIdeal.Bridge

open Cert.ReferenceIdeal Cert.ReferenceIdeal.Gen Cert.ReferenceIdeal.Read Cert.GraphLayers
open Idealize.ShloMosaic Idealize.ShloMosaic.ValueIdx
open Cert.KernelIdeal.Graph (srcRow dstRow nbrSumOf nbrMeanOf linLeft linRight hidden network linLeft_apply linRight_apply)

/-! ## The shared aggregations -/

/-- The reference's first aggregation is the neighbour sum of the raw features. -/
theorem sum_is (x0 : FVec Ideal S50000x96 .f32) (x1 : IVec S2x800000 32) :
    val_main_v13 (F := Ideal) x0 x1 = nbrSumOf (F := Ideal) x0 (srcRow x1) (dstRow x1) := rfl

/-- Its second is the neighbour mean of whatever the first layer produced. -/
theorem mean_is (x0 : FVec Ideal S50000x96 .f32) (x1 : IVec S2x800000 32) (x2 x3 : FVec Ideal S96x96 .f32) (x4 : FVec Ideal S96 .f32) :
    val_main_v38 (F := Ideal) x0 x1 x2 x3 x4
      = nbrMeanOf (F := Ideal) (val_main_v19 (F := Ideal) x0 x1 x2 x3 x4) (srcRow x1) (dstRow x1) := rfl

/-! ## The operand indices of the host products, at row `p` and column `q` -/

theorem l14 (p : Fin 50000) (q k : Fin 96) : lidx_main_v14 (ix2 p q) k = ix2 p k :=
  funext fun a => Fin.ext (by match a with | ⟨0, _⟩ => rfl | ⟨1, _⟩ => rfl)
theorem r14 (p : Fin 50000) (q k : Fin 96) : ridx_main_v14 (ix2 p q) k = ix2 k q :=
  funext fun a => Fin.ext (by match a with | ⟨0, _⟩ => rfl | ⟨1, _⟩ => rfl)
theorem l15 (p : Fin 50000) (q k : Fin 96) : lidx_main_v15 (ix2 p q) k = ix2 p k :=
  funext fun a => Fin.ext (by match a with | ⟨0, _⟩ => rfl | ⟨1, _⟩ => rfl)
theorem r15 (p : Fin 50000) (q k : Fin 96) : ridx_main_v15 (ix2 p q) k = ix2 k q :=
  funext fun a => Fin.ext (by match a with | ⟨0, _⟩ => rfl | ⟨1, _⟩ => rfl)
theorem l39 (p : Fin 50000) (q k : Fin 96) : lidx_main_v39 (ix2 p q) k = ix2 p k :=
  funext fun a => Fin.ext (by match a with | ⟨0, _⟩ => rfl | ⟨1, _⟩ => rfl)
theorem r39 (p : Fin 50000) (q k : Fin 96) : ridx_main_v39 (ix2 p q) k = ix2 k q :=
  funext fun a => Fin.ext (by match a with | ⟨0, _⟩ => rfl | ⟨1, _⟩ => rfl)
theorem l40 (p : Fin 50000) (q k : Fin 96) : lidx_main_v40 (ix2 p q) k = ix2 p k :=
  funext fun a => Fin.ext (by match a with | ⟨0, _⟩ => rfl | ⟨1, _⟩ => rfl)
theorem r40 (p : Fin 50000) (q k : Fin 96) : ridx_main_v40 (ix2 p q) k = ix2 k q :=
  funext fun a => Fin.ext (by match a with | ⟨0, _⟩ => rfl | ⟨1, _⟩ => rfl)
theorem bias18 (p : Fin 50000) (q : Fin 96) : idx_main_v17 (idx_main_v18 (ix2 p q)) = ix1 q :=
  funext fun a => Fin.ext (by match a with | ⟨0, _⟩ => rfl)
theorem bias43 (p : Fin 50000) (q : Fin 96) : idx_main_v42 (idx_main_v43 (ix2 p q)) = ix1 q :=
  funext fun a => Fin.ext (by match a with | ⟨0, _⟩ => rfl)
theorem bias49 (p : Fin 50000) (q : Fin 96) : idx_main_v48 (idx_main_v49 (ix2 p q)) = ix1 q :=
  funext fun a => Fin.ext (by match a with | ⟨0, _⟩ => rfl)

/-! ## The two layers -/

/-- The reference's first layer is `hidden`. -/
theorem hidden_is (x0 : FVec Ideal S50000x96 .f32) (x1 : IVec S2x800000 32) (x2 x3 : FVec Ideal S96x96 .f32) (x4 : FVec Ideal S96 .f32) :
    val_main_v19 (F := Ideal) x0 x1 x2 x3 x4 = hidden x0 x1 x2 x3 x4 := by
  funext i
  obtain ⟨p, q, rfl⟩ : ∃ (p : Fin 50000) (q : Fin 96), i = ix2 p q := ⟨i 0, i 1, eq_ix2 i⟩
  rw [val_main_v19_apply, val_main_v16_apply, val_main_v14_apply, val_main_v15_apply, val_main_v18_apply, val_main_v17_apply, sum_is]
  simp only [l14, r14, l15, r15, bias18]
  rfl

/-- Its second layer is `conv` of the first layer's result and that result's neighbour means. -/
theorem second_is (x0 : FVec Ideal S50000x96 .f32) (x1 : IVec S2x800000 32) (x2 x3 : FVec Ideal S96x96 .f32) (x4 : FVec Ideal S96 .f32)
    (x5 x6 : FVec Ideal S96x96 .f32) (x7 : FVec Ideal S96 .f32) :
    val_main_v44 (F := Ideal) x0 x1 x2 x3 x4 x5 x6 x7
      = conv (n := 50000) (hidden x0 x1 x2 x3 x4) (nbrMeanOf (F := Ideal) (hidden x0 x1 x2 x3 x4) (srcRow x1) (dstRow x1)) x5 x6 x7 := by
  funext i
  obtain ⟨p, q, rfl⟩ : ∃ (p : Fin 50000) (q : Fin 96), i = ix2 p q := ⟨i 0, i 1, eq_ix2 i⟩
  rw [val_main_v44_apply, val_main_v41_apply, val_main_v39_apply, val_main_v40_apply, val_main_v43_apply, val_main_v42_apply, mean_is, hidden_is]
  simp only [l39, r39, l40, r40, bias43]
  rfl

/-! ## The read-out -/

/-- The product of the two layers side by side with the transposed weights: the 192-term sum split at 96. -/
theorem readout_sum (h1 h2 : FVec Ideal S50000x96 .f32) (x8 : FVec Ideal S96x192 .f32) (p : Fin 50000) (q : Fin 96) :
    ∑ k : Fin 192, (concatenate (α := EReal) S50000x192 1 [⟨S50000x96, h1⟩, ⟨S50000x96, h2⟩] concatenates_S50000x96_S50000x96_S50000x192_d1) (lidx_main_v47 (ix2 p q) k)
        * (val_main_v46 (F := Ideal) x8) (ridx_main_v47 (ix2 p q) k)
      = ∑ k : Fin 96, h1 (ix2 p k) * linLeft (F := Ideal) x8 (ix2 k q) + ∑ k : Fin 96, h2 (ix2 p k) * linRight (F := Ideal) x8 (ix2 k q) := by
  refine (Fin.sum_univ_add (a := 96) (b := 96) _).trans ?_
  refine congrArg₂ (· + ·) (Finset.sum_congr rfl fun k _ => ?_) (Finset.sum_congr rfl fun k _ => ?_)
  · refine congrArg₂ (· * ·) ?_ ?_
    · exact concatenate_pair_apply_left 1 h1 h2 concatenates_S50000x96_S50000x96_S50000x192_d1 _ rfl (ix2 p k) (fun b => match b with
        | ⟨0, _⟩ => rfl
        | ⟨1, _⟩ => rfl)
    · rw [val_main_v46_apply, linLeft_apply]
      exact congrArg x8 (funext fun a => Fin.ext (by match a with | ⟨0, _⟩ => rfl | ⟨1, _⟩ => rfl))
  · refine congrArg₂ (· * ·) ?_ ?_
    · exact concatenate_pair_apply_right 1 h1 h2 concatenates_S50000x96_S50000x96_S50000x192_d1 _ rfl rfl (ix2 p k) (fun b hb => match b with
        | ⟨0, _⟩ => rfl
        | ⟨1, _⟩ => absurd rfl hb) (by show k.val + 96 = 96 + k.val; omega)
    · rw [val_main_v46_apply, linRight_apply]
      exact congrArg x8 (funext fun a => Fin.ext (by match a with | ⟨0, _⟩ => rfl | ⟨1, _⟩ => rfl))

/-- The reference's result is `network` of the arguments. -/
theorem network_is (x0 : FVec Ideal S50000x96 .f32) (x1 : IVec S2x800000 32) (x2 x3 : FVec Ideal S96x96 .f32) (x4 : FVec Ideal S96 .f32)
    (x5 x6 : FVec Ideal S96x96 .f32) (x7 : FVec Ideal S96 .f32) (x8 : FVec Ideal S96x192 .f32) (x9 : FVec Ideal S96 .f32) :
    val_main_v51 (F := Ideal) x0 x1 x2 x3 x4 x5 x6 x7 x8 x9 = network x0 x1 x2 x3 x4 x5 x6 x7 x8 x9 := by
  funext i
  obtain ⟨p, q, rfl⟩ : ∃ (p : Fin 50000) (q : Fin 96), i = ix2 p q := ⟨i 0, i 1, eq_ix2 i⟩
  rw [val_main_v51_apply, val_main_v50_apply, val_main_v47_apply, val_main_v49_apply, val_main_v48_apply, val_main_call0_v0_apply,
    val_main_call0_cst_apply, bias49]
  unfold val_main_v45
  rw [readout_sum, hidden_is, second_is]
  rfl

end Cert.ReferenceIdeal.Bridge

end
-- ==== Proof.lean ====
/-
  Two programs for a two-layer graph network on 50000 nodes with 96 features and 800000 edges.

  Both aggregate neighbour features on the host by the same gather and scatter-add operations.  The kernel program
  computes each dense stage inside a launch that walks the nodes in 25 blocks of 2000 rows: the first launch is one
  layer (root product + neighbour product + bias), the second launch is the second layer followed by the read-out,
  with the 192-column read-out weights split into two transposed 96-column halves so that no concatenation is
  needed.  The reference computes the same stages as whole-matrix host products and multiplies the two layers'
  results laid side by side by the transposed weights.

  At the ideal values a change of float format is the identity and every product is a plain sum, so each launch's
  result matrix is the stage applied to the whole matrices (a row of a stage depends on the same row of its
  row-indexed operands only, and the blocks tile the rows), and the reference's 192-term sum splits at 96 into the
  kernel's two 96-term sums.  Both programs therefore end with `network` of the arguments in their result; only
  commutativity and associativity of addition are used, so the finiteness precondition is never opened.

  The frames of the two kernel programs are the generated ones; the reference's is its generated run with the result
  dropped; no operation was rewritten by the idealization, so there is nothing to preserve.
-/
import proofs.«170782_j10153302687984_1_alg».proof.Defs
import proofs.«170782_j10153302687984_1_alg».proof.Proof.Gen.Kernel
import proofs.«170782_j10153302687984_1_alg».proof.Proof.Gen.Kernel.Skeleton
import proofs.«170782_j10153302687984_1_alg».proof.Proof.Gen.Kernel.Launch
import proofs.«170782_j10153302687984_1_alg».proof.Proof.Gen.Kernel.Points
import proofs.«170782_j10153302687984_1_alg».proof.Proof.Gen.Kernel.Frame
import proofs.«170782_j10153302687984_1_alg».proof.Proof.Gen.KernelIdeal
import proofs.«170782_j10153302687984_1_alg».proof.Proof.Gen.KernelIdeal.Skeleton
import proofs.«170782_j10153302687984_1_alg».proof.Proof.Gen.KernelIdeal.Launch
import proofs.«170782_j10153302687984_1_alg».proof.Proof.Gen.KernelIdeal.Points
import proofs.«170782_j10153302687984_1_alg».proof.Proof.Gen.KernelIdeal.Frame
import proofs.«170782_j10153302687984_1_alg».proof.Proof.Gen.ReferenceIdeal
import proofs.«170782_j10153302687984_1_alg».proof.Proof.Gen.ReferenceIdeal.Run
import proofs.«170782_j10153302687984_1_alg».proof.Proof.Gen.ReferenceIdeal.Read
import proofs.«170782_j10153302687984_1_alg».proof.Proof.Gen.Pre_finite_inputs
import proofs.«170782_j10153302687984_1_alg».proof.Proof.Run
import proofs.«170782_j10153302687984_1_alg».proof.Proof.Boundaries
import proofs.«170782_j10153302687984_1_alg».proof.Proof.Reference
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Run from memories that agree on the arguments, both programs end with the network's value on the arguments in
    their result, and leave the arguments as they were. -/
theorem algebraic : Cert.algebraic_KernelIdeal_ReferenceIdeal := by
  intro m ρ m' ρ' _ hagree
  refine ⟨fun c => Cert.KernelIdeal.Graph.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Boundaries.result m ρ c), (h c).2⟩)
      (Cert.KernelIdeal.Run.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9⟩ := hagree c
    rw [Cert.ReferenceIdeal.Read.val_main_v51_eq, Cert.ReferenceIdeal.Bridge.network_is, e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
